-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048x2048 .f32) (main_arg2 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S16384x2048, .f32⟩
  | .hbm, ⟨8, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x2048_S16384x2048 : S4x4096x2048.ShapeCasts S16384x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  shapeCasts_S16384x2048_S4x4096x2048 : S16384x2048.ShapeCasts S4x4096x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .f32 = 32 ∨ (Rect.block (s := S16384x2048) S256x2048.size (cc0_transform_3 i) (hinb0_3 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S4x4096x2048, .f32⟩
  | .hbm, ⟨4, _⟩ => ⟨S1x1x2048, .f32⟩
  | .hbm, ⟨5, _⟩ => ⟨S4x4096x2048, .f32⟩
  | .hbm, ⟨6, _⟩ => ⟨S4x4096x2048, .f32⟩
  | .hbm, ⟨7, _⟩ => ⟨S_, .i32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x2048, .f32⟩
  | .hbm, ⟨36, _⟩ => ⟨S4x4096x2048, .f32⟩
  | .hbm, ⟨37, _⟩ => ⟨S4x4096x2048, .i1⟩
  | .hbm, ⟨38, _⟩ => ⟨S4x4096x1, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x2048, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_cst_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_cst_1 : Ref sig .tc := ⟨.hbm, 18, rfl⟩
abbrev main_call0_call0_v8 : Ref sig .tc := ⟨.hbm, 19, rfl⟩
abbrev main_call0_call0_cst_2 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_v12 : Ref sig .tc := ⟨.hbm, 24, rfl⟩
abbrev main_call0_call0_cst_3 : Ref sig .tc := ⟨.hbm, 25, rfl⟩
abbrev main_call0_call0_v13 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_v0 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_v14 : Ref sig .tc := ⟨.hbm, 46, rfl⟩
abbrev main_cst_1 : Ref sig .tc := ⟨.hbm, 47, rfl⟩
abbrev main_v15 : Ref sig .tc := ⟨.hbm, 48, rfl⟩
abbrev main_v16 : Ref sig .tc := ⟨.hbm, 49, rfl⟩
abbrev main_cst_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.RowSpec.lean ====
/-
  One token's outlier-aware fake quantization, on the extended reals.

  A token is a row `y : Fin 2048 → EReal` of the linear layer's output. Its mean is `(∑ y) / 2048`, its
  variance the mean of the squared deviations, its threshold three standard deviations. An entry whose
  absolute value exceeds the threshold is an outlier and is kept; every other entry is clamped to
  `[-thr, thr]`, divided by the row's scale (the largest clamped magnitude over 127, at least `f32(1e-6)`),
  rounded to the nearest integer with ties to even, and multiplied by the scale again.

  The float constants are kept as the values their bit patterns denote and are never evaluated here: the same
  pattern stands on both sides of every equation that mentions one.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx
open scoped BigOperators

/-- `2048.0`, the row length. -/
abbrev cN : EReal := Ideal.ofBits .f32 0x45000000#32
/-- `3.0`, the outlier threshold in standard deviations. -/
abbrev c3 : EReal := Ideal.ofBits .f32 0x40400000#32
/-- `+0.0`. -/
abbrev c0 : EReal := Ideal.ofBits .f32 0x00000000#32
/-- `127.0`, the largest int8 magnitude. -/
abbrev cQ : EReal := Ideal.ofBits .f32 0x42FE0000#32
/-- `f32(1e-6)`, the smallest scale. -/
abbrev cEps : EReal := Ideal.ofBits .f32 0x358637BD#32
/-- `-∞`, the maximum's starting value. -/
abbrev cBot : EReal := Ideal.ofBits .f32 0xFF800000#32

/-- The row's mean. -/
def rowMean (y : Fin 2048 → EReal) : EReal := Ideal.div (∑ k : Fin 2048, y k) cN

/-- The row's variance: the mean of the squared deviations from the mean. -/
def rowVar (y : Fin 2048 → EReal) : EReal :=
  Ideal.div (∑ k : Fin 2048, (y k - rowMean y) * (y k - rowMean y)) cN

/-- The row's outlier threshold: three standard deviations. -/
def rowThr (y : Fin 2048 → EReal) : EReal := c3 * Ideal.sqrt (rowVar y)

/-- An entry clamped to `[-thr, thr]`: first from below, then from above. -/
def rowClamp (y : Fin 2048 → EReal) (lo : EReal) (o : Fin 2048) : EReal := min (rowThr y) (max lo (y o))

/-- The row's scale from its clamped entries: the largest magnitude over 127, at least `f32(1e-6)`. -/
def rowScale (z : Fin 2048 → EReal) : EReal :=
  max (Ideal.div ((Finset.univ : Finset (Fin 2048)).fold max cBot (fun k => max (z k) (-(z k)))) cQ) cEps

/-- One entry of the quantized row, the lower clamp bound `lo` given: the entry itself where it is an outlier, else
    the clamped entry rounded on the row's scale. -/
def rowQuantFrom (y : Fin 2048 → EReal) (lo : EReal) (o : Fin 2048) : EReal :=
  Scalar.select (Ideal.cmp .ogt (max (y o) (-(y o))) (rowThr y)) (y o)
    (Ideal.liftRound Ideal.roundHalfEven (Ideal.div (rowClamp y lo o) (rowScale (rowClamp y lo)))
      * rowScale (rowClamp y lo))

/-- One entry of the quantized row: the lower clamp bound is the negated threshold. -/
def rowQuant (y : Fin 2048 → EReal) (o : Fin 2048) : EReal := rowQuantFrom y (-(rowThr y)) o

/-- Subtracting from the zero pattern negates, on every extended real. -/
theorem c0_sub (t : EReal) : c0 - t = -t := by
  show Ideal.ofBits .f32 0x00000000#32 - t = -t
  rw [Ideal.ofBits_zero_f32, zero_sub]

/-- One entry of the linear layer: the token's row of `x` against row `o` of `W`, plus the bias. -/
def linear (x : (⟨3, ![4, 4096, 2048]⟩ : Shape).Idx → EReal) (W : (⟨2, ![2048, 2048]⟩ : Shape).Idx → EReal)
    (b : (⟨1, ![2048]⟩ : Shape).Idx → EReal) (p : Fin 4) (s : Fin 4096) (o : Fin 2048) : EReal :=
  (∑ d : Fin 2048, x (ix3 p s d) * W (ix2 o d)) + b (ix1 o)

/-- The whole result: every token's linear output, quantized along its row. -/
def result (x : (⟨3, ![4, 4096, 2048]⟩ : Shape).Idx → EReal) (W : (⟨2, ![2048, 2048]⟩ : Shape).Idx → EReal)
    (b : (⟨1, ![2048]⟩ : Shape).Idx → EReal) : (⟨3, ![4, 4096, 2048]⟩ : Shape).Idx → EReal :=
  fun i => rowQuant (fun o => linear x W b (i 0) (i 1) o) (i 2)

end Cert.Quant

end
-- ==== Proof.Layout.lean ====
/-
  Layout operations and row reductions read at an index, for the shapes of a token matrix `[a, b]` and a token
  tensor `[a, b, n]`: a column of row statistics `[a] → [a, 1]` and its spreading over the row, one row spread
  over many, a bias `[n] → [1, 1, n]` spread over the tokens, a tensor's statistics `[a, b] → [a, b, 1]` spread
  along the last axis, a scalar spread everywhere, the merge of the two token axes, the sum and the maximum
  of a row as a `Fin`-indexed sum and fold, and the elementwise operations the library does not read at an index.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx
open scoped BigOperators

variable {α : Type}

/-! ## Elementwise operations read at an index (at the extended reals, by definition) -/

section Elementwise
variable {s : Shape} {φ : FTy}

theorem sqrt_apply (a : FVec Ideal s φ) (i : s.Idx) : sqrt a i = Ideal.sqrt (a i) := rfl
theorem absf_apply (a : FVec Ideal s φ) (i : s.Idx) : absf a i = max (a i) (-(a i)) := rfl
theorem roundeven_apply (a : FVec Ideal s φ) (i : s.Idx) :
    roundeven a i = Ideal.liftRound Ideal.roundHalfEven (a i) := rfl
theorem cmpf_ideal_apply (p : CmpFPredicate) (a b : FVec Ideal s φ) (i : s.Idx) :
    cmpf p a b i = Ideal.cmp p (a i) (b i) := rfl
theorem scalar_ofBits (b : BitVec φ.bits) : Scalar.ofBits (F := Ideal) φ b = Ideal.ofBits φ b := rfl
theorem hostDivf_apply (a b : FVec Ideal s φ) (i : s.Idx) : Host.divf a b i = Ideal.div (a i) (b i) := rfl
theorem hostSqrt_apply (a : FVec Ideal s φ) (i : s.Idx) : Host.sqrt a i = Ideal.sqrt (a i) := rfl
theorem hostAbsf_apply (a : FVec Ideal s φ) (i : s.Idx) : Host.absf a i = max (a i) (-(a i)) := rfl
theorem hostNegf_apply (a : FVec Ideal s φ) (i : s.Idx) : Host.negf a i = -(a i) := rfl
theorem hostRoundeven_apply (a : FVec Ideal s φ) (i : s.Idx) :
    Host.roundeven a i = Ideal.liftRound Ideal.roundHalfEven (a i) := rfl

end Elementwise

/-! ## A token matrix `[a, b]` -/

/-- A vector of row statistics cast to a column reads, at `(r, 0)`, the statistic of row `r`. -/
theorem shapeCast_a_a1_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column spread over the rows' entries reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Row `r` with the column coordinate `k` put back is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A row sum: the lane reduction of a token matrix at row `r` is the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A row maximum: the lane maximum of a token matrix at row `r` is the fold of `max`, from the accumulator's value,
    over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_row h r k)
  exact congrArg (fun f => Finset.fold max (Ideal.ofBits φ acc) f (Finset.univ : Finset (Fin b))) hf

/-! ## A token tensor `[a, b, n]` -/

/-- A bias placed on the last axis of `[1, 1, n]` reads, at `(0, 0, o)`, its entry `o`. -/
theorem broadcastInDim_n_11n_apply {n : ℕ} (v : (⟨1, ![n]⟩ : Shape).Idx → α)
    (h : (⟨1, ![n]⟩ : Shape).BroadcastsInDim ⟨3, ![1, 1, n]⟩ ![2]) (o : Fin n) :
    broadcastInDim ⟨3, ![1, 1, n]⟩ ![2] h v (ix3 (0 : Fin 1) (0 : Fin 1) o) = v (ix1 o) := by
  refine broadcastInDim_apply ![2] h v _ (ix1 o) fun ax => ?_
  match ax with
  | ⟨0, _⟩ =>
    show o.val = if n = 1 then 0 else o.val
    split
    · have := o.isLt; omega
    · rfl

/-- One row `[1, 1, n]` spread over all tokens reads, at `(p, s, o)`, its entry `o`. -/
theorem broadcastInDim_11n_abn_apply {a b n : ℕ} (v : (⟨3, ![1, 1, n]⟩ : Shape).Idx → α)
    (h : (⟨3, ![1, 1, n]⟩ : Shape).BroadcastsInDim ⟨3, ![a, b, n]⟩ ![0, 1, 2]) (p : Fin a) (s : Fin b) (o : Fin n) :
    broadcastInDim ⟨3, ![a, b, n]⟩ ![0, 1, 2] h v (ix3 p s o) = v (ix3 (0 : Fin 1) (0 : Fin 1) o) := by
  refine broadcastInDim_apply ![0, 1, 2] h v _ (ix3 (0 : Fin 1) (0 : Fin 1) o) fun ax => ?_
  match ax with
  | ⟨0, _⟩ => rfl
  | ⟨1, _⟩ => rfl
  | ⟨2, _⟩ =>
    show o.val = if n = 1 then 0 else o.val
    split
    · have := o.isLt; omega
    · rfl

/-- Token statistics `[a, b]` given a unit last axis read, at `(p, s, 0)`, the statistic of token `(p, s)`. -/
theorem broadcastInDim_ab_ab1_apply {a b : ℕ} (v : (⟨2, ![a, b]⟩ : Shape).Idx → α)
    (h : (⟨2, ![a, b]⟩ : Shape).BroadcastsInDim ⟨3, ![a, b, 1]⟩ ![0, 1]) (p : Fin a) (s : Fin b) :
    broadcastInDim ⟨3, ![a, b, 1]⟩ ![0, 1] h v (ix3 p s (0 : Fin 1)) = v (ix2 p s) := by
  refine broadcastInDim_apply ![0, 1] h v _ (ix2 p s) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl

/-- A scalar spread over any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) : broadcastInDim t dims h v j = v ix0 :=
  broadcastInDim_apply dims h v j ix0 fun ax => ax.elim0

/-- Token statistics `[a, b, 1]` spread along the last axis read, at `(p, s, o)`, the statistic of token `(p, s)`. -/
theorem broadcastInDim_ab1_abn_apply {a b n : ℕ} (v : (⟨3, ![a, b, 1]⟩ : Shape).Idx → α)
    (h : (⟨3, ![a, b, 1]⟩ : Shape).BroadcastsInDim ⟨3, ![a, b, n]⟩ ![0, 1, 2]) (p : Fin a) (s : Fin b) (o : Fin n) :
    broadcastInDim ⟨3, ![a, b, n]⟩ ![0, 1, 2] h v (ix3 p s o) = v (ix3 p s (0 : Fin 1)) := by
  refine broadcastInDim_apply ![0, 1, 2] h v _ (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- Token `(p, s)` with the last coordinate `k` put back is `(p, s, k)`. -/
theorem lift_token {a b n : ℕ} (h : (⟨3, ![a, b, n]⟩ : Shape).Reduces [2] (⟨2, ![a, b]⟩ : Shape)) (p : Fin a) (s : Fin b)
    (k : Fin ((⟨3, ![a, b, n]⟩ : Shape).size 2)) : h.lift (ix2 p s) k = ix3 p s (⟨k.val, k.isLt⟩ : Fin n) := by
  funext c; apply Fin.ext
  fin_cases c <;> rfl

/-- A token's sum on the host: the initial value plus the sum of the token's entries. -/
theorem hostReduceAdd_token {a b n : ℕ} {φ : FTy} (x : FVec Ideal ⟨3, ![a, b, n]⟩ φ) (init : (⟨0, ![]⟩ : Shape).Idx → Ideal φ)
    (h' : (⟨3, ![a, b, n]⟩ : Shape).ReducesTo [2] (⟨2, ![a, b]⟩ : Shape)) (h : (⟨3, ![a, b, n]⟩ : Shape).Reduces [2] (⟨2, ![a, b]⟩ : Shape))
    (hu : 0 < (⟨0, ![]⟩ : Shape).numel) (p : Fin a) (s : Fin b) :
    Host.reduceAdd x init h' hu (ix2 p s) = init ix0 + ∑ k : Fin n, x (ix3 p s k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_token h p s k))

/-- A token's maximum on the host: the fold of `max`, from the initial value, over the token's entries. -/
theorem hostReduce_maximumf_token {a b n : ℕ} {φ : FTy} (x : FVec Ideal ⟨3, ![a, b, n]⟩ φ) (init : (⟨0, ![]⟩ : Shape).Idx → Ideal φ)
    (h' : (⟨3, ![a, b, n]⟩ : Shape).ReducesTo [2] (⟨2, ![a, b]⟩ : Shape)) (h : (⟨3, ![a, b, n]⟩ : Shape).Reduces [2] (⟨2, ![a, b]⟩ : Shape))
    (hu : 0 < (⟨0, ![]⟩ : Shape).numel) (p : Fin a) (s : Fin b) :
    Host.reduce FloatOps.maximumf x init h' hu (ix2 p s)
      = (Finset.univ : Finset (Fin n)).fold max (init ix0) (fun k => x (ix3 p s k)) := by
  rw [Host.reduce_eq_fold_single FloatOps.maximumf x init h' h hu, eq_ix0 (Shape.Idx.first hu)]
  have hf : (x ∘ h.lift (ix2 p s)) = fun k : Fin n => x (ix3 p s k) := funext fun k => congrArg x (lift_token h p s k)
  exact congrArg (fun f => Finset.fold max (init ix0) f (Finset.univ : Finset (Fin n))) hf

/-! ## Merging and splitting the two token axes -/

/-- The tokens `[a, b, n]` laid out as a matrix `[a * b, n]`: row `p * b + s` is token `(p, s)`. -/
theorem shapeCast_abn_mn_apply {a b n m : ℕ} (v : (⟨3, ![a, b, n]⟩ : Shape).Idx → α)
    (h : (⟨3, ![a, b, n]⟩ : Shape).ShapeCasts ⟨2, ![m, n]⟩) (p : Fin a) (s : Fin b) (o : Fin n) (r : Fin m)
    (hr : r.val = p.val * b + s.val) : shapeCast ⟨2, ![m, n]⟩ v h (ix2 r o) = v (ix3 p s o) := by
  refine shapeCast_apply v h (ix2 r o) (ix3 p s o) ?_
  rw [Shape.rowMajor_val_three, Shape.rowMajor_val_two]
  show (p.val * b + s.val) * n + o.val = r.val * n + o.val
  rw [hr]

/-- The matrix `[a * b, n]` laid out as tokens `[a, b, n]`: token `(p, s)` is row `p * b + s`. -/
theorem shapeCast_mn_abn_apply {a b n m : ℕ} (v : (⟨2, ![m, n]⟩ : Shape).Idx → α)
    (h : (⟨2, ![m, n]⟩ : Shape).ShapeCasts ⟨3, ![a, b, n]⟩) (p : Fin a) (s : Fin b) (o : Fin n) (r : Fin m)
    (hr : r.val = p.val * b + s.val) : shapeCast ⟨3, ![a, b, n]⟩ v h (ix3 p s o) = v (ix2 r o) := by
  refine shapeCast_apply v h (ix3 p s o) (ix2 r o) ?_
  rw [Shape.rowMajor_val_three, Shape.rowMajor_val_two]
  show r.val * n + o.val = (p.val * b + s.val) * n + o.val
  rw [hr]

end Cert.Layout

end
-- ==== Proof.KernelBlock.lean ====
/-
  The kernel's block, read entry by entry.

  A grid point holds 256 tokens' rows of `x` (`x0`), the whole transposed weight matrix (`x1`, row `k` column `o` the
  weight of input `k` for output `o`) and the bias as one row (`x2`). The body forms each token's linear output —
  the product of the token's row with column `o`, plus the bias — and quantizes the token's row of outputs.
-/
import proofs.«142777_j70944269795991_1_alg».proof.Proof.Gen.KernelIdeal.Skeleton
import proofs.«142777_j70944269795991_1_alg».proof.Proof.RowSpec
import proofs.«142777_j70944269795991_1_alg».proof.Proof.Layout

noncomputable section

namespace Cert.KernelIdeal.Block

open Cert.KernelIdeal Cert.KernelIdeal.Gen Idealize.ShloMosaic Idealize.ShloMosaic.ValueIdx Cert.Quant Cert.Layout
open scoped BigOperators

/-- The body's matrix product: `[256, 2048] × [2048, 2048]`, contracting the first operand's columns with the second's rows. -/
abbrev D := dot_S256x2048_S2048x2048_S256x2048_1_0_0_1_n_n

/-- The product's contraction runs over `Fin 2048`. -/
abbrev contr : D.contr.Idx ≃ Fin 2048 := contrEquiv1 D 2048 rfl rfl

/-- At output `(r, o)` and contraction position `k` the first operand is read at `(r, k)`, -/
theorem lhsIdx_eq (r : Fin 256) (o : Fin 2048) (k : Fin 2048) : D.lhsIdx (ix2 r o) (contr.symm k) = ix2 r k := by
  funext a; apply Fin.ext
  match a with
  | ⟨0, _⟩ => simp [DotDims.lhsIdx, D, dot_S256x2048_S2048x2048_S256x2048_1_0_0_1_n_n]; rfl
  | ⟨1, _⟩ => exact (D.lhsIdx_val_of_single (cl := 1) rfl (ix2 r o) (contr.symm k)).trans (contrEquiv1_symm_val D 2048 rfl rfl k)

/-- and the second at `(k, o)`. -/
theorem rhsIdx_eq (r : Fin 256) (o : Fin 2048) (k : Fin 2048) : D.rhsIdx (ix2 r o) (contr.symm k) = ix2 k o := by
  funext a; apply Fin.ext
  match a with
  | ⟨0, _⟩ => exact (D.rhsIdx_val_of_single (cr := 0) rfl (ix2 r o) (contr.symm k)).trans (contrEquiv1_symm_val D 2048 rfl rfl k)
  | ⟨1, _⟩ => simp [DotDims.rhsIdx, D, dot_S256x2048_S2048x2048_S256x2048_1_0_0_1_n_n]; rfl

/-- One token's linear output within the block. -/
def blockLinear (x0 : FVec Ideal S256x2048 .f32) (x1 : FVec Ideal S2048x2048 .bf16) (x2 : FVec Ideal S1x2048 .f32)
    (r : Fin 256) (o : Fin 2048) : EReal :=
  (∑ k : Fin 2048, x0 (ix2 r k) * x1 (ix2 k o)) + x2 (ix2 (0 : Fin 1) o)

/-- The body's linear part at `(r, o)`: the format change is the identity, the product into a zero accumulator the
    plain sum over the contraction, the bias row spread over the tokens. -/
theorem pay2_apply (x0 : FVec Ideal S256x2048 .f32) (x1 : FVec Ideal S2048x2048 .bf16) (x2 : FVec Ideal S1x2048 .f32)
    (r : Fin 256) (o : Fin 2048) : k0_pay2 (F := Ideal) x0 x1 x2 (ix2 r o) = blockLinear x0 x1 x2 r o := by
  unfold k0_pay2 blockLinear
  rw [addf_apply, shapeCast_self, shapeCast_self, shapeCast_self, broadcastTo_1b_ab_apply]
  refine congrArg (· + x2 (ix2 (0 : Fin 1) o)) ?_
  refine (Ideal.matmul_constant_zero_apply D none _ x1 (ix2 r o)).trans ?_
  rw [← Equiv.sum_comp contr.symm]
  refine Finset.sum_congr rfl fun k _ => ?_
  rw [lhsIdx_eq, rhsIdx_eq]
  rfl

/-! ## Row statistics of a block -/

/-- Row `r` of a block of linear outputs. -/
abbrev row (y : FVec Ideal S256x2048 .f32) (r : Fin 256) : Fin 2048 → EReal := fun o => y (ix2 r o)

/-- The column of row sums at `(r, 0)`. -/
theorem rowSum_apply (y : FVec Ideal S256x2048 .f32) (hφ : FKind.Formats .f32)
    (hacc : (0x00000000#32 : BitVec 32) = FKind.add.neutral .f32 hφ) (r : Fin 256) :
    shapeCast S256x1 (multiReduction .add [1] S256 y 0x00000000#32 reduces_S256x2048_S256 hφ hacc) shapeCasts_S256_S256x1
        (ix2 r (0 : Fin 1))
      = ∑ k : Fin 2048, y (ix2 r k) :=
  (shapeCast_a_a1_apply _ shapeCasts_S256_S256x1 r).trans
    (multiReduction_add_row y 0x00000000#32 reduces_S256x2048_S256 hφ hacc r)

/-- The column of row maxima, from `-∞`, at `(r, 0)`. -/
theorem rowMax_apply (y : FVec Ideal S256x2048 .f32) (hφ : FKind.Formats .f32)
    (hacc : (0xFF800000#32 : BitVec 32) = FKind.maximumf.neutral .f32 hφ) (r : Fin 256) :
    shapeCast S256x1 (multiReduction .maximumf [1] S256 y 0xFF800000#32 reduces_S256x2048_S256 hφ hacc) shapeCasts_S256_S256x1
        (ix2 r (0 : Fin 1))
      = (Finset.univ : Finset (Fin 2048)).fold max cBot (fun k => y (ix2 r k)) :=
  (shapeCast_a_a1_apply _ shapeCasts_S256_S256x1 r).trans
    (multiReduction_maximumf_row y 0xFF800000#32 reduces_S256x2048_S256 hφ hacc r)

/-- A column of row statistics spread over the rows reads, at `(r, o)`, row `r`'s statistic. -/
theorem spread_apply (v : FVec Ideal S256x1 .f32) (r : Fin 256) (o : Fin 2048) :
    broadcastTo S256x2048 v broadcasts_S256x1_S256x2048 (ix2 r o) = v (ix2 r (0 : Fin 1)) :=
  broadcastTo_a1_ab_apply v broadcasts_S256x1_S256x2048 r o

/-! ## The body's steps as functions of the block of linear outputs

Each step is stated once over a block `y` of linear outputs and read at an entry; the generated payloads are these
steps of the linear part, by definition. -/

/-- The column of row means. -/
def meanCol (y : FVec Ideal S256x2048 .f32) : FVec Ideal S256x1 .f32 :=
  divf (shapeCast S256x1 (multiReduction .add [1] S256 y 0x00000000#32 reduces_S256x2048_S256 (.inl rfl) rfl) shapeCasts_S256_S256x1)
    (broadcast S256x1 (Scalar.ofBits .f32 0x45000000#32))

theorem meanCol_apply (y : FVec Ideal S256x2048 .f32) (r : Fin 256) :
    meanCol y (ix2 r (0 : Fin 1)) = rowMean (row y r) :=
  congrArg (fun t => Ideal.div t cN) (rowSum_apply y (.inl rfl) rfl r)

/-- The deviations from the row means. -/
def centered (y : FVec Ideal S256x2048 .f32) : FVec Ideal S256x2048 .f32 :=
  subf y (broadcastTo S256x2048 (meanCol y) broadcasts_S256x1_S256x2048)

theorem centered_apply (y : FVec Ideal S256x2048 .f32) (r : Fin 256) (o : Fin 2048) :
    centered y (ix2 r o) = y (ix2 r o) - rowMean (row y r) :=
  congrArg (fun t => y (ix2 r o) - t) ((spread_apply (meanCol y) r o).trans (meanCol_apply y r))

/-- The column of thresholds: three times the square root of the mean squared deviation. -/
def thrCol (y : FVec Ideal S256x2048 .f32) : FVec Ideal S256x1 .f32 :=
  mulf (broadcast S256x1 (Scalar.ofBits .f32 0x40400000#32))
    (sqrt (divf (shapeCast S256x1 (multiReduction .add [1] S256 (mulf (centered y) (centered y)) 0x00000000#32
        reduces_S256x2048_S256 (.inl rfl) rfl) shapeCasts_S256_S256x1)
      (broadcast S256x1 (Scalar.ofBits .f32 0x45000000#32))))

theorem thrCol_apply (y : FVec Ideal S256x2048 .f32) (r : Fin 256) :
    thrCol y (ix2 r (0 : Fin 1)) = rowThr (row y r) := by
  have h : shapeCast S256x1 (multiReduction .add [1] S256 (mulf (centered y) (centered y)) 0x00000000#32
        reduces_S256x2048_S256 (.inl rfl) rfl) shapeCasts_S256_S256x1 (ix2 r (0 : Fin 1))
      = ∑ k : Fin 2048, (row y r k - rowMean (row y r)) * (row y r k - rowMean (row y r)) :=
    (rowSum_apply _ (.inl rfl) rfl r).trans (Finset.sum_congr rfl fun k _ => by
      rw [mulf_apply, centered_apply])
  exact congrArg (fun t => c3 * Ideal.sqrt (Ideal.div t cN)) h

/-- The outlier mask: the entries whose magnitude exceeds their row's threshold. -/
def maskM (y : FVec Ideal S256x2048 .f32) : IVec S256x2048 1 :=
  cmpf .ogt (absf y) (broadcastTo S256x2048 (thrCol y) broadcasts_S256x1_S256x2048)

theorem maskM_apply (y : FVec Ideal S256x2048 .f32) (r : Fin 256) (o : Fin 2048) :
    maskM y (ix2 r o) = Ideal.cmp .ogt (max (y (ix2 r o)) (-(y (ix2 r o)))) (rowThr (row y r)) :=
  congrArg (fun t => Ideal.cmp .ogt (max (y (ix2 r o)) (-(y (ix2 r o)))) t)
    ((spread_apply (thrCol y) r o).trans (thrCol_apply y r))

/-- The clamped entries: from below by zero minus the threshold, then from above by the threshold. -/
def clampM (y : FVec Ideal S256x2048 .f32) : FVec Ideal S256x2048 .f32 :=
  minimumf (broadcastTo S256x2048 (thrCol y) broadcasts_S256x1_S256x2048)
    (maximumf (broadcastTo S256x2048 (subf (broadcast S256x1 (Scalar.ofBits .f32 0x00000000#32)) (thrCol y))
      broadcasts_S256x1_S256x2048) y)

theorem clampM_apply (y : FVec Ideal S256x2048 .f32) (r : Fin 256) (o : Fin 2048) :
    clampM y (ix2 r o) = rowClamp (row y r) (-(rowThr (row y r))) o := by
  have h1 := (spread_apply (thrCol y) r o).trans (thrCol_apply y r)
  have h2 : broadcastTo S256x2048 (subf (broadcast S256x1 (Scalar.ofBits .f32 0x00000000#32)) (thrCol y))
      broadcasts_S256x1_S256x2048 (ix2 r o) = -(rowThr (row y r)) :=
    (spread_apply _ r o).trans ((congrArg (fun t => c0 - t) (thrCol_apply y r)).trans (c0_sub _))
  show min _ (max _ (y (ix2 r o))) = _
  rw [h1, h2]
  rfl

/-- The column of scales of a block of clamped entries. -/
def scaleCol (z : FVec Ideal S256x2048 .f32) : FVec Ideal S256x1 .f32 :=
  maximumf
    (divf (shapeCast S256x1 (multiReduction .maximumf [1] S256 (absf z) 0xFF800000#32 reduces_S256x2048_S256 (.inl rfl) rfl)
        shapeCasts_S256_S256x1)
      (broadcast S256x1 (Scalar.ofBits .f32 0x42FE0000#32)))
    (broadcast S256x1 (Scalar.ofBits .f32 0x358637BD#32))

theorem scaleCol_apply (z : FVec Ideal S256x2048 .f32) (r : Fin 256) :
    scaleCol z (ix2 r (0 : Fin 1)) = rowScale (row z r) :=
  congrArg (fun t => max (Ideal.div t cQ) cEps) (rowMax_apply (absf z) (.inl rfl) rfl r)

/-- The block's result: outliers kept, the other entries rounded on their row's scale. -/
def quantM (y : FVec Ideal S256x2048 .f32) : FVec Ideal S256x2048 .f32 :=
  select (maskM y) y
    (mulf (roundeven (divf (clampM y) (broadcastTo S256x2048 (scaleCol (clampM y)) broadcasts_S256x1_S256x2048)))
      (broadcastTo S256x2048 (scaleCol (clampM y)) broadcasts_S256x1_S256x2048))

/-- Row `r` of the clamped block is the clamp of row `r`. -/
theorem row_clampM (y : FVec Ideal S256x2048 .f32) (r : Fin 256) :
    row (clampM y) r = rowClamp (row y r) (-(rowThr (row y r))) :=
  funext fun o => clampM_apply y r o

theorem quantM_apply (y : FVec Ideal S256x2048 .f32) (r : Fin 256) (o : Fin 2048) :
    quantM y (ix2 r o) = rowQuant (row y r) o := by
  have hs := (spread_apply (scaleCol (clampM y)) r o).trans ((scaleCol_apply (clampM y) r).trans
    (congrArg rowScale (row_clampM y r)))
  show Scalar.select (maskM y (ix2 r o)) (y (ix2 r o))
      (Ideal.liftRound Ideal.roundHalfEven (Ideal.div (clampM y (ix2 r o))
          (broadcastTo S256x2048 (scaleCol (clampM y)) broadcasts_S256x1_S256x2048 (ix2 r o)))
        * broadcastTo S256x2048 (scaleCol (clampM y)) broadcasts_S256x1_S256x2048 (ix2 r o)) = _
  rw [hs, maskM_apply, clampM_apply]
  rfl

/-! ## The generated payloads are these steps -/

/-- The body's five payloads compose to the quantization of the linear part. -/
theorem pay1_eq (x0 : FVec Ideal S256x2048 .f32) (x1 : FVec Ideal S2048x2048 .bf16) (x2 : FVec Ideal S1x2048 .f32) :
    k0_pay1 (F := Ideal) (k0_pay2 (F := Ideal) x0 x1 x2) (k0_pay4 (F := Ideal) x0 x1 x2) (k0_pay5 (F := Ideal) x0 x1 x2)
        (k0_pay6 (F := Ideal) x0 x1 x2) (k0_pay7 (F := Ideal) x0 x1 x2)
      = quantM (k0_pay2 (F := Ideal) x0 x1 x2) := rfl

/-- The block's result at `(r, o)`: the quantization of token `r`'s row of linear outputs, at entry `o`. -/
theorem block_apply (x0 : FVec Ideal S256x2048 .f32) (x1 : FVec Ideal S2048x2048 .bf16) (x2 : FVec Ideal S1x2048 .f32)
    (r : Fin 256) (o : Fin 2048) :
    k0_pay1 (F := Ideal) (k0_pay2 (F := Ideal) x0 x1 x2) (k0_pay4 (F := Ideal) x0 x1 x2) (k0_pay5 (F := Ideal) x0 x1 x2)
        (k0_pay6 (F := Ideal) x0 x1 x2) (k0_pay7 (F := Ideal) x0 x1 x2) (ix2 r o)
      = rowQuant (fun o' => blockLinear x0 x1 x2 r o') o := by
  rw [pay1_eq, quantM_apply]
  exact congrArg (fun f => rowQuant f o) (funext fun o' => pay2_apply x0 x1 x2 r o')

end Cert.KernelIdeal.Block

end
-- ==== Proof.KernelArray.lean ====
/-
  The kernel's result array.

  Grid point `t` stages rows `256 t … 256 t + 255` of the token matrix, the whole weight matrix and the bias row, and
  writes back rows `256 t … 256 t + 255` of the result. Every row of the result is the quantization of that token's
  linear outputs, a function of the token's own row only, so what a point writes back is its block of one
  whole-matrix function; the 64 blocks tile the matrix, so the array ends at that function. Around the region the
  host lays the tokens `[4, 4096, 2048]` out as the matrix `[16384, 2048]` (row `4096 p + s` is token `(p, s)`),
  transposes the weights, makes the bias a row, and lays the result back out as tokens.
-/
import proofs.«142777_j70944269795991_1_alg».proof.Proof.Gen.KernelIdeal.Frame
import proofs.«142777_j70944269795991_1_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Quant Cert.Layout Cert.KernelIdeal.Block
open Idealize.ShloMosaic.Pipeline (Dat)
open scoped BigOperators

variable (m : (ℓ : Loc nD τ sig) → Buf (Elt Ideal) ℓ) (ρ : Dev nD → PrngReg)

/-! ## The matrix the region computes -/

/-- Token `R`'s linear output `o`, from the staged arrays: the token matrix, the transposed weights, the bias row. -/
def tokLinear (A0 : S16384x2048.Idx → EReal) (A1 : S2048x2048.Idx → EReal) (A2 : S1x2048.Idx → EReal)
    (R : Fin 16384) (o : Fin 2048) : EReal :=
  (∑ k : Fin 2048, A0 (ix2 R k) * A1 (ix2 k o)) + A2 (ix2 (0 : Fin 1) o)

/-- The whole result matrix: each token's linear outputs, quantized along the row. -/
def matQuant (A0 : S16384x2048.Idx → EReal) (A1 : S2048x2048.Idx → EReal) (A2 : S1x2048.Idx → EReal) :
    S16384x2048.Idx → EReal :=
  fun i => rowQuant (fun o => tokLinear A0 A1 A2 (i 0) o) (i 1)

theorem hz : (![0, 0] : Fin 2 → Nat) = fun _ => 0 := funext fun a => by fin_cases a <;> rfl

/-- The printed index maps over the 64 grid points: the token windows sit at block row `t`, the weights and the bias
    at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks, read through their windows -/

/-- Row `r` of the tokens' block at point `t` is row `256 t + r` of the token matrix. -/
theorem iblk0_apply (c : Dev nD) (t : Fin cfg0.N) (r : Fin 256) (k : Fin 2048) (R : Fin 16384)
    (hR : R.val = t.val * 256 + r.val) :
    (iblk m c 0 t : FVec Ideal S256x2048 .f32) (ix2 r k) = (V m c main_v0 : S16384x2048.Idx → EReal) (ix2 R k) := by
  obtain ⟨e0, e1, -⟩ := idx_facts t
  show V m c main_v0 (((cfg0.win 0).blk t).view.emb (ix2 r k)) = V m c main_v0 (ix2 R k)
  refine congrArg (V m c main_v0) (funext fun a => Fin.ext ?_)
  match a with
  | ⟨0, _⟩ => show win0_0.index t (0 : Fin 2) * 256 + 1 * r.val = R.val; rw [e0, hR]; omega
  | ⟨1, _⟩ => show win0_0.index t (1 : Fin 2) * 2048 + 1 * k.val = k.val; rw [e1]; omega

/-- The weights' block is the whole transposed weight matrix at every point. -/
theorem iblk1_apply (c : Dev nD) (t : Fin cfg0.N) (k : Fin 2048) (o : Fin 2048) :
    (iblk m c 1 t : FVec Ideal S2048x2048 .bf16) (ix2 k o) = (V m c main_v2 : S2048x2048.Idx → EReal) (ix2 k o) := by
  obtain ⟨-, -, e2, e3, -⟩ := idx_facts t
  show V m c main_v2 (((cfg0.win 1).blk t).view.emb (ix2 k o)) = V m c main_v2 (ix2 k o)
  refine congrArg (V m c main_v2) (funext fun a => Fin.ext ?_)
  match a with
  | ⟨0, _⟩ => show win0_1.index t (0 : Fin 2) * 2048 + 1 * k.val = k.val; rw [e2]; omega
  | ⟨1, _⟩ => show win0_1.index t (1 : Fin 2) * 2048 + 1 * o.val = o.val; rw [e3]; omega

/-- The bias's block is the whole bias row at every point. -/
theorem iblk2_apply (c : Dev nD) (t : Fin cfg0.N) (o : Fin 2048) :
    (iblk m c 2 t : FVec Ideal S1x2048 .f32) (ix2 (0 : Fin 1) o) = (V m c main_v3 : S1x2048.Idx → EReal) (ix2 (0 : Fin 1) o) := by
  obtain ⟨-, -, -, -, e4, e5, -⟩ := idx_facts t
  show V m c main_v3 (((cfg0.win 2).blk t).view.emb (ix2 (0 : Fin 1) o)) = V m c main_v3 (ix2 (0 : Fin 1) o)
  refine congrArg (V m c main_v3) (funext fun a => Fin.ext ?_)
  match a with
  | ⟨0, _⟩ => show win0_2.index t (0 : Fin 2) * 1 + 1 * 0 = 0; rw [e4]
  | ⟨1, _⟩ => show win0_2.index t (1 : Fin 2) * 2048 + 1 * o.val = o.val; rw [e5]; omega

/-! ## What a point writes back, and the array after the run -/

/-- Point `t` writes back block `t` of the whole result matrix. -/
theorem flushed_eq (c : Dev nD) (t : Fin cfg0.N) :
    (dats m 0 c).flushed 3 t
      = ((cfg0.win 3).blk t).view.read (Elt Ideal) (matQuant (V m c main_v0) (V m c main_v2) (V m c main_v3)) := by
  show (cfg0.win 3).cut (grid0.coords t) ((dats m 0 c).after 3 t) = _
  rw [after0_3]
  unfold out0_3
  rw [View.canon_unit_zero hz]
  simp only [View.ld_unit_zero (S := S256x2048) hz, View.ld_unit_zero (S := S2048x2048) hz, View.ld_unit_zero (S := S1x2048) hz]
  obtain ⟨-, -, -, -, -, -, e6, e7⟩ := idx_facts t
  funext j
  obtain ⟨r, o, rfl⟩ : ∃ (r : Fin 256) (o : Fin 2048), j = ix2 r o := ⟨j 0, j 1, eq_ix2 j⟩
  have hN : cfg0.N = 64 := N_0
  have ht : t.val < 64 := hN ▸ t.isLt
  let R : Fin 16384 := ⟨t.val * 256 + r.val, by have := r.isLt; omega⟩
  have hemb : ((cfg0.win 3).blk t).view.emb (ix2 r o) = ix2 R o := by
    funext a; apply Fin.ext
    match a with
    | ⟨0, _⟩ => show win0_3.index t (0 : Fin 2) * 256 + 1 * r.val = t.val * 256 + r.val; rw [e6]; omega
    | ⟨1, _⟩ => show win0_3.index t (1 : Fin 2) * 2048 + 1 * o.val = o.val; rw [e7]; omega
  show k0_pay1 (F := Ideal) (k0_pay2 (F := Ideal) (iblk m c 0 t) (iblk m c 1 t) (iblk m c 2 t))
        (k0_pay4 (F := Ideal) (iblk m c 0 t) (iblk m c 1 t) (iblk m c 2 t)) (k0_pay5 (F := Ideal) (iblk m c 0 t) (iblk m c 1 t) (iblk m c 2 t))
        (k0_pay6 (F := Ideal) (iblk m c 0 t) (iblk m c 1 t) (iblk m c 2 t)) (k0_pay7 (F := Ideal) (iblk m c 0 t) (iblk m c 1 t) (iblk m c 2 t)) (ix2 r o)
      = matQuant (V m c main_v0) (V m c main_v2) (V m c main_v3) (((cfg0.win 3).blk t).view.emb (ix2 r o))
  rw [hemb]
  refine (block_apply (iblk m c 0 t) (iblk m c 1 t) (iblk m c 2 t) r o).trans ?_
  show _ = rowQuant (fun o' => tokLinear (V m c main_v0) (V m c main_v2) (V m c main_v3) R o') o
  refine congrArg (fun f => rowQuant f o) (funext fun o' => ?_)
  unfold blockLinear tokLinear
  rw [iblk2_apply m c t o']
  refine congrArg (· + (V m c main_v3 : S1x2048.Idx → EReal) (ix2 (0 : Fin 1) o')) ?_
  exact Finset.sum_congr rfl fun k _ => by rw [iblk0_apply m c t r k R rfl, iblk1_apply m c t k o']

/-- An index of the matrix is in point `t`'s block iff each coordinate is in the block's range on its axis. -/
theorem mem_blk (t : Fin cfg0.N) (i : S16384x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v4).slice (win0_3.rect t)).set ↔ _
  rw [View.set_slice_whole, Rect.mem_set_unit]
  exact Iff.rfl

/-- Row `R` of the matrix is in the block of point `R / 256`: the 64 blocks tile the matrix. -/
theorem cover (i : S16384x2048.Idx) :
    ∃ t : Fin cfg0.N, (cfg0.win 3).flush t = true ∧ i ∈ ((cfg0.win 3).blk t).view.set := by
  have hN : cfg0.N = 64 := N_0
  have hi0 : (i 0).val < 16384 := (i 0).isLt
  have hi1 : (i 1).val < 2048 := (i 1).isLt
  let t : Fin cfg0.N := ⟨(i 0).val / 256, by rw [hN]; omega⟩
  obtain ⟨-, -, -, -, -, -, e6, e7⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e6]; show (i 0).val / 256 * 256 ≤ (i 0).val ∧ (i 0).val < (i 0).val / 256 * 256 + 256; omega
  | ⟨1, _⟩ =>
    show win0_3.index t (1 : Fin 2) * 2048 ≤ (i 1).val ∧ (i 1).val < win0_3.index t (1 : Fin 2) * 2048 + 2048
    rw [e7]; omega

/-- The result matrix after the run. -/
theorem final (c : Dev nD) :
    (dats m 0 c).arrAt 3 cfg0.N = matQuant (V m c main_v0) (V m c main_v2) (V m c main_v3) :=
  (dats m 0 c).arrAt_eq_of_cover 3 (matQuant (V m c main_v0) (V m c main_v2) (V m c main_v3))
    (fun t _ => flushed_eq m c t) cover

/-! ## Around the region: the host's layout changes -/

/-- The region finds the tokens laid out as a matrix, -/
theorem V_v0 (c : Dev nD) : (V m c main_v0 : S16384x2048.Idx → EReal)
    = shapeCast S16384x2048 (m ((c : Thread nD τ).loc main_arg0)) shapeCasts_S4x4096x2048_S16384x2048 := by
  show StableHlo.after hostOps0 (fun b => m (c, b)) (Proc.devRef .tc main_v0) = _
  after_results
  rfl

/-- the weights transposed (the format change is the identity), -/
theorem V_v2 (c : Dev nD) : (V m c main_v2 : S2048x2048.Idx → EReal)
    = transpose S2048x2048 [1, 0] (m ((c : Thread nD τ).loc main_arg1)) transposes_S2048x2048_S2048x2048_1_0 := by
  show StableHlo.after hostOps0 (fun b => m (c, b)) (Proc.devRef .tc main_v2) = _
  after_results
  rfl

/-- and the bias as one row. -/
theorem V_v3 (c : Dev nD) : (V m c main_v3 : S1x2048.Idx → EReal)
    = shapeCast S1x2048 (m ((c : Thread nD τ).loc main_arg2)) shapeCasts_S2048_S1x2048 := by
  show StableHlo.after hostOps0 (fun b => m (c, b)) (Proc.devRef .tc main_v3) = _
  after_results
  rfl

/-- After the region the host lays the result matrix back out as tokens. -/
theorem tail_v5 (c : Dev nD) :
    (Pipeline.afterTail₀ cfgs (dats m) 0 (V0 m) [hostOps1] c main_v5 : S4x4096x2048.Idx → EReal)
      = shapeCast S4x4096x2048 ((dats m 0 c).arrAt 3 cfg0.N) shapeCasts_S16384x2048_S4x4096x2048 := by
  unfold Pipeline.afterTail₀
  show StableHlo.after hostOps1 _ (Proc.devRef .tc main_v5) = _
  after_results
  rw [Pipeline.withArrays_arr spec0 launch0.win.arr_inj c _ _ 3]
  rfl

/-- Token `(p, s)`'s linear output from the staged arrays is the linear layer of the launch arrays. -/
theorem tokLinear_eq (c : Dev nD) (p : Fin 4) (s : Fin 4096) (o : Fin 2048) (R : Fin 16384) (hR : R.val = p.val * 4096 + s.val) :
    tokLinear (V m c main_v0) (V m c main_v2) (V m c main_v3) R o
      = linear (m ((c : Thread nD τ).loc main_arg0)) (m ((c : Thread nD τ).loc main_arg1)) (m ((c : Thread nD τ).loc main_arg2)) p s o := by
  unfold tokLinear linear
  rw [V_v0, V_v2, V_v3, shapeCast_a_1a_apply]
  refine congrArg (· + _) (Finset.sum_congr rfl fun k _ => ?_)
  rw [shapeCast_abn_mn_apply _ _ p s k R hR, transpose_ix2_apply]

/-- The result, laid out as tokens, is the specification's function of the launch arrays. -/
theorem tokens_eq (c : Dev nD) :
    shapeCast S4x4096x2048 (matQuant (V m c main_v0) (V m c main_v2) (V m c main_v3)) shapeCasts_S16384x2048_S4x4096x2048
      = result (m ((c : Thread nD τ).loc main_arg0)) (m ((c : Thread nD τ).loc main_arg1)) (m ((c : Thread nD τ).loc main_arg2)) := by
  funext i
  obtain ⟨p, s, o, rfl⟩ : ∃ (p : Fin 4) (s : Fin 4096) (o : Fin 2048), i = ix3 p s o := ⟨i 0, i 1, i 2, eq_ix3 i⟩
  let R : Fin 16384 := ⟨p.val * 4096 + s.val, by have := p.isLt; have := s.isLt; omega⟩
  rw [shapeCast_mn_abn_apply _ _ p s o R rfl]
  show rowQuant (fun o' => tokLinear (V m c main_v0) (V m c main_v2) (V m c main_v3) R o') o = _
  exact congrArg (fun f => rowQuant f o) (funext fun o' => tokLinear_eq m c p s o' R rfl)

/-! ## The run -/

/-- Every weakly fair execution of the idealized kernel terminates with the result at the specification's function
    of the launch arrays, and the arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans
        ((tail_v5 m c).trans ((congrArg (fun A => shapeCast S4x4096x2048 A shapeCasts_S16384x2048_S4x4096x2048) (final m c)).trans
          (tokens_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.ReferenceRun.lean ====
/-
  The reference read back as a straight line.

  The reference computes the linear layer, then the token statistics through the functions jax outlines for
  `jnp.std` (which calls its variance, which ends in a `where`), `jnp.clip`, `jnp.round` and `jnp.where`. A call
  executes the callee's body on the operands, so with every body written out at its call — each over that call's own
  buffers — the program is one list of 56 host operations, and every weakly fair execution of it ends with each buffer
  at the list's fold over the launch contents.
-/
import proofs.«142777_j70944269795991_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The 56 operations, in order: the linear layer (4), the zero `ddof` (1), the variance's body with its `where` (23),
    the square root (1), the threshold, the outlier mask and the negated threshold (7), the clamp's body (4), the
    scale (12), the rounding (1), the product with the scale (2) and the final selection (1). -/
abbrev ops : List (HloOp τ sig (Elt F)) :=
  [ binary main_arg0 main_arg1 main_v0 ((fun l r => Host.dotGeneral dot_S4x4096x2048_S2048x2048_S4x4096x2048_2_1_01_0_n_n none l r) : (⟨S4x4096x2048, .f32⟩ : BufTy).Contents (Elt F) → (⟨S2048x2048, .f32⟩ : BufTy).Contents (Elt F) → (⟨S4x4096x2048, .f32⟩ : BufTy).Contents (Elt F)),
    unary main_arg2 main_v1 (broadcastInDim S1x1x2048 ![2] bcast_S2048_S1x1x2048_2 : (⟨S2048, .f32⟩ : BufTy).Contents (Elt F) → (⟨S1x1x2048, .f32⟩ : BufTy).Contents (Elt F)),
    unary main_v1 main_v2 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    binary main_v0 main_v2 main_v3 (addf : (⟨S4x4096x2048, .f32⟩ : BufTy).Contents (Elt F) → (⟨S4x4096x2048, .f32⟩ : BufTy).Contents (Elt F) → (⟨S4x4096x2048, .f32⟩ : BufTy).Contents (Elt F)),
    nullary main_c (constantI S_ 32 0#32),
    TRef.nullary main_call0.call0.cst (constant S_ .f32 0x00000000#32),
    TRef.binary (.of main_v3 : StableHlo.TRef sig ⟨S4x4096x2048, .f32⟩) main_call0.call0.cst main_call0.call0.v0 (fun x v => Host.reduceAdd x v reducesTo_S4x4096x2048_S4x4096_d2 h_S_),
    TRef.unary main_call0.call0.v0 main_call0.call0.v1 (broadcastInDim S4x4096x1 ![0, 1] bcast_S4x4096_S4x4096x1_0_1),
    TRef.nullary main_call0.call0.cst_0 (constant S_ .f32 0x45000000#32),
    TRef.unary main_call0.call0.cst_0 main_call0.call0.v2 (broadcastInDim S4x4096x1 ![] bcast_S_S4x4096x1),
    TRef.binary main_call0.call0.v1 main_call0.call0.v2 main_call0.call0.v3 Host.divf,
    TRef.unary main_call0.call0.v3 main_call0.call0.v4 (broadcastInDim S4x4096x2048 ![0, 1, 2] bcast_S4x4096x1_S4x4096x2048_0_1_2),
    TRef.binary (.of main_v3 : StableHlo.TRef sig ⟨S4x4096x2048, .f32⟩) main_call0.call0.v4 main_call0.call0.v5 subf,
    TRef.binary main_call0.call0.v5 main_call0.call0.v5 main_call0.call0.v6 mulf,
    TRef.unary (.of main_c : StableHlo.TRef sig ⟨S_, .i32⟩) main_call0.call0.v7 (sitofp .f32),
    TRef.nullary main_call0.call0.cst_1 (constant S_ .f32 0x45000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S4x4096x2048_S4x4096_d2 h_S_),
    TRef.unary main_call0.call0.v9 main_call0.call0.v10 (broadcastInDim S4x4096x1 ![0, 1] bcast_S4x4096_S4x4096x1_0_1),
    TRef.unary main_call0.call0.v8 main_call0.call0.v11 (broadcastInDim S4x4096x1 ![] bcast_S_S4x4096x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S4x4096x1 ![] bcast_S_S4x4096x1),
    TRef.ternary main_call0.call0.v13 main_call0.call0.v12 main_call0.call0.call0.v1 main_call0.call0.call0.v2 (fun p a b => select (broadcastInDim S4x4096x1 ![] bcast_S_S4x4096x1 p) a b),
    TRef.unary main_call0.call0.call0.v2 main_call0.v1 Host.sqrt,
    nullary main_cst (constant S_ .f32 0x40400000#32),
    unary main_cst main_v5 (broadcastInDim S4x4096x1 ![] bcast_S_S4x4096x1 : (⟨S_, .f32⟩ : BufTy).Contents (Elt F) → (⟨S4x4096x1, .f32⟩ : BufTy).Contents (Elt F)),
    binary main_v5 main_v4 main_v6 (mulf : (⟨S4x4096x1, .f32⟩ : BufTy).Contents (Elt F) → (⟨S4x4096x1, .f32⟩ : BufTy).Contents (Elt F) → (⟨S4x4096x1, .f32⟩ : BufTy).Contents (Elt F)),
    unary main_v3 main_v7 (Host.absf : (⟨S4x4096x2048, .f32⟩ : BufTy).Contents (Elt F) → (⟨S4x4096x2048, .f32⟩ : BufTy).Contents (Elt F)),
    unary main_v6 main_v8 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v7 main_v8 main_v9 (cmpf .ogt : (⟨S4x4096x2048, .f32⟩ : BufTy).Contents (Elt F) → (⟨S4x4096x2048, .f32⟩ : BufTy).Contents (Elt F) → (⟨S4x4096x2048, .i1⟩ : BufTy).Contents (Elt F)),
    unary main_v6 main_v10 (Host.negf : (⟨S4x4096x1, .f32⟩ : BufTy).Contents (Elt F) → (⟨S4x4096x1, .f32⟩ : BufTy).Contents (Elt F)),
    TRef.unary (.of main_v10 : StableHlo.TRef sig ⟨S4x4096x1, .f32⟩) main_call1.v0 (broadcastInDim S4x4096x2048 ![0, 1, 2] bcast_S4x4096x1_S4x4096x2048_0_1_2),
    TRef.binary main_call1.v0 (.of main_v3 : StableHlo.TRef sig ⟨S4x4096x2048, .f32⟩) main_call1.v1 maximumf,
    TRef.unary (.of main_v6 : StableHlo.TRef sig ⟨S4x4096x1, .f32⟩) main_call1.v2 (broadcastInDim S4x4096x2048 ![0, 1, 2] bcast_S4x4096x1_S4x4096x2048_0_1_2),
    TRef.binary main_call1.v2 main_call1.v1 main_call1.v3 minimumf,
    unary main_v11 main_v12 (Host.absf : (⟨S4x4096x2048, .f32⟩ : BufTy).Contents (Elt F) → (⟨S4x4096x2048, .f32⟩ : BufTy).Contents (Elt F)),
    nullary main_cst_0 (constant S_ .f32 0xFF800000#32),
    binary main_v12 main_cst_0 main_v13 ((fun x v => Host.reduce FloatOps.maximumf x v reducesTo_S4x4096x2048_S4x4096_d2 h_S_) : (⟨S4x4096x2048, .f32⟩ : BufTy).Contents (Elt F) → (⟨S_, .f32⟩ : BufTy).Contents (Elt F) → (⟨S4x4096, .f32⟩ : BufTy).Contents (Elt F)),
    unary main_v13 main_v14 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_1 (constant S_ .f32 0x42FE0000#32),
    unary main_cst_1 main_v15 (broadcastInDim S4x4096x1 ![] bcast_S_S4x4096x1 : (⟨S_, .f32⟩ : BufTy).Contents (Elt F) → (⟨S4x4096x1, .f32⟩ : BufTy).Contents (Elt F)),
    binary main_v14 main_v15 main_v16 (Host.divf : (⟨S4x4096x1, .f32⟩ : BufTy).Contents (Elt F) → (⟨S4x4096x1, .f32⟩ : BufTy).Contents (Elt F) → (⟨S4x4096x1, .f32⟩ : BufTy).Contents (Elt F)),
    nullary main_cst_2 (constant S_ .f32 0x358637BD#32),
    unary main_cst_2 main_v17 (broadcastInDim S4x4096x1 ![] bcast_S_S4x4096x1 : (⟨S_, .f32⟩ : BufTy).Contents (Elt F) → (⟨S4x4096x1, .f32⟩ : BufTy).Contents (Elt F)),
    binary main_v16 main_v17 main_v18 (maximumf : (⟨S4x4096x1, .f32⟩ : BufTy).Contents (Elt F) → (⟨S4x4096x1, .f32⟩ : BufTy).Contents (Elt F) → (⟨S4x4096x1, .f32⟩ : BufTy).Contents (Elt F)),
    unary main_v18 main_v19 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v11 main_v19 main_v20 (Host.divf : (⟨S4x4096x2048, .f32⟩ : BufTy).Contents (Elt F) → (⟨S4x4096x2048, .f32⟩ : BufTy).Contents (Elt F) → (⟨S4x4096x2048, .f32⟩ : BufTy).Contents (Elt F)),
    TRef.unary (.of main_v20 : StableHlo.TRef sig ⟨S4x4096x2048, .f32⟩) main_call2.v0 Host.roundeven,
    unary main_v18 main_v22 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v21 main_v22 main_v23 (mulf : (⟨S4x4096x2048, .f32⟩ : BufTy).Contents (Elt F) → (⟨S4x4096x2048, .f32⟩ : BufTy).Contents (Elt F) → (⟨S4x4096x2048, .f32⟩ : BufTy).Contents (Elt F)),
    TRef.ternary (.of main_v9 : StableHlo.TRef sig ⟨S4x4096x2048, .i1⟩) (.of main_v3 : StableHlo.TRef sig ⟨S4x4096x2048, .f32⟩) (.of main_v23 : StableHlo.TRef sig ⟨S4x4096x2048, .f32⟩) main_call3.v0 select ]

set_option maxRecDepth 1024 in
/-- The program is that straight line: the callees' definitions opened at their calls and the records at their
    fields, sequencing reassociated. -/
theorem main_eq (c : Dev nD) : main (F := F) c = seq ops := by
  simp only [main, fn_std.body, fn_var.body, fn_where.body, fn_clip.body, fn_round.body, fn_where_0.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., ternary_bufs_sub ..⟩

/-- From any memory with zero counters every weakly fair execution of the reference terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Straight

end
-- ==== Proof.ReferenceValue.lean ====
/-
  The reference's result, read entry by entry.

  The straight line's last buffer is the composition of a few whole-tensor steps: the linear layer, the column of
  token means, the deviations, the variance under the guard `2048 - ddof > 0` (which holds: `ddof` is the integer
  zero, so the divisor is `2048` and the guard's other branch is never taken), three standard deviations, the mask,
  the clamp, the scale and the selection. Each step is read at a token `(p, s)` in terms of the token's row.
-/
import proofs.«142777_j70944269795991_1_alg».proof.Proof.ReferenceRun
import proofs.«142777_j70944269795991_1_alg».proof.Proof.RowSpec
import proofs.«142777_j70944269795991_1_alg».proof.Proof.Layout

noncomputable section

namespace Cert.ReferenceIdeal.Reading

open Cert.ReferenceIdeal Cert.ReferenceIdeal.Gen Cert.ReferenceIdeal.Straight Idealize.ShloMosaic Idealize.ShloMosaic.TcCoe Idealize.SL.Sem
open Idealize.ShloMosaic.StableHlo Idealize.ShloMosaic.ValueIdx Cert.Quant Cert.Layout
open scoped BigOperators

/-! ## The constants the guard evaluates -/

/-- `2048.0` denotes the real `2048`. -/
theorem cN_eq : cN = ((2048 : ℝ) : EReal) := by
  show Ideal.ofBits .f32 0x45000000#32 = _
  simp [Ideal.ofBits, Ideal.ieee, -EReal.coe_mul]; norm_num

/-- `+0.0` denotes `0`. -/
theorem c0_eq : c0 = 0 := Ideal.ofBits_zero_f32

/-! ## The reference's steps -/

/-- The linear layer: `x` against `W` over the last axes, plus the bias spread over the tokens. -/
def linearT (x : FVec Ideal S4x4096x2048 .f32) (W : FVec Ideal S2048x2048 .f32) (b : FVec Ideal S2048 .f32) :
    FVec Ideal S4x4096x2048 .f32 :=
  addf (Host.dotGeneral (F := Ideal) dot_S4x4096x2048_S2048x2048_S4x4096x2048_2_1_01_0_n_n none x W)
    (broadcastInDim S4x4096x2048 ![0, 1, 2] bcast_S1x1x2048_S4x4096x2048_0_1_2 (broadcastInDim S1x1x2048 ![2] bcast_S2048_S1x1x2048_2 b))

/-- The token means, one per token, with a unit last axis. -/
def meanT (y : FVec Ideal S4x4096x2048 .f32) : FVec Ideal S4x4096x1 .f32 :=
  Host.divf (F := Ideal)
    (broadcastInDim S4x4096x1 ![0, 1] bcast_S4x4096_S4x4096x1_0_1
      (Host.reduceAdd (F := Ideal) y (constant (F := Ideal) S_ .f32 0x00000000#32) reducesTo_S4x4096x2048_S4x4096_d2 h_S_))
    (broadcastInDim S4x4096x1 ![] bcast_S_S4x4096x1 (constant (F := Ideal) S_ .f32 0x45000000#32))

/-- The deviations from the token means. -/
def centeredT (y : FVec Ideal S4x4096x2048 .f32) : FVec Ideal S4x4096x2048 .f32 :=
  subf y (broadcastInDim S4x4096x2048 ![0, 1, 2] bcast_S4x4096x1_S4x4096x2048_0_1_2 (meanT y))

/-- The variance's divisor: `2048` less the integer zero read as a float. -/
def normT : FVec Ideal S_ .f32 :=
  subf (constant (F := Ideal) S_ .f32 0x45000000#32) (sitofp .f32 (constantI S_ 32 0#32))

/-- The token variances: the mean squared deviation where the divisor is positive, else the junk constant. -/
def varT (y : FVec Ideal S4x4096x2048 .f32) : FVec Ideal S4x4096x1 .f32 :=
  select (broadcastInDim S4x4096x1 ![] bcast_S_S4x4096x1 (cmpf .ogt normT (constant (F := Ideal) S_ .f32 0x00000000#32)))
    (Host.divf (F := Ideal)
      (broadcastInDim S4x4096x1 ![0, 1] bcast_S4x4096_S4x4096x1_0_1
        (Host.reduceAdd (F := Ideal) (mulf (centeredT y) (centeredT y)) (constant (F := Ideal) S_ .f32 0x00000000#32)
          reducesTo_S4x4096x2048_S4x4096_d2 h_S_))
      (broadcastInDim S4x4096x1 ![] bcast_S_S4x4096x1 normT))
    (broadcastInDim S4x4096x1 ![] bcast_S_S4x4096x1 (id (constant (F := Ideal) S_ .f32 0x7FC00000#32)))

/-- The token thresholds. -/
def thrT (y : FVec Ideal S4x4096x2048 .f32) : FVec Ideal S4x4096x1 .f32 :=
  mulf (broadcastInDim S4x4096x1 ![] bcast_S_S4x4096x1 (constant (F := Ideal) S_ .f32 0x40400000#32)) (Host.sqrt (F := Ideal) (varT y))

/-- The outlier mask. -/
def maskT (y : FVec Ideal S4x4096x2048 .f32) : IVec S4x4096x2048 1 :=
  cmpf .ogt (Host.absf (F := Ideal) y) (broadcastInDim S4x4096x2048 ![0, 1, 2] bcast_S4x4096x1_S4x4096x2048_0_1_2 (thrT y))

/-- The clamped entries: from below by the negated threshold, then from above by the threshold. -/
def clampT (y : FVec Ideal S4x4096x2048 .f32) : FVec Ideal S4x4096x2048 .f32 :=
  minimumf (broadcastInDim S4x4096x2048 ![0, 1, 2] bcast_S4x4096x1_S4x4096x2048_0_1_2 (thrT y))
    (maximumf (broadcastInDim S4x4096x2048 ![0, 1, 2] bcast_S4x4096x1_S4x4096x2048_0_1_2 (Host.negf (F := Ideal) (thrT y))) y)

/-- The token scales of a tensor of clamped entries. -/
def scaleT (z : FVec Ideal S4x4096x2048 .f32) : FVec Ideal S4x4096x1 .f32 :=
  maximumf
    (Host.divf (F := Ideal)
      (broadcastInDim S4x4096x1 ![0, 1] bcast_S4x4096_S4x4096x1_0_1
        (Host.reduce FloatOps.maximumf (Host.absf (F := Ideal) z) (constant (F := Ideal) S_ .f32 0xFF800000#32)
          reducesTo_S4x4096x2048_S4x4096_d2 h_S_))
      (broadcastInDim S4x4096x1 ![] bcast_S_S4x4096x1 (constant (F := Ideal) S_ .f32 0x42FE0000#32)))
    (broadcastInDim S4x4096x1 ![] bcast_S_S4x4096x1 (constant (F := Ideal) S_ .f32 0x358637BD#32))

/-- The result: outliers kept, the other entries rounded on their token's scale. -/
def quantT (y : FVec Ideal S4x4096x2048 .f32) : FVec Ideal S4x4096x2048 .f32 :=
  select (maskT y) y
    (mulf (Host.roundeven (F := Ideal) (Host.divf (F := Ideal) (clampT y) (broadcastInDim S4x4096x2048 ![0, 1, 2] bcast_S4x4096x1_S4x4096x2048_0_1_2 (scaleT (clampT y)))))
      (broadcastInDim S4x4096x2048 ![0, 1, 2] bcast_S4x4096x1_S4x4096x2048_0_1_2 (scaleT (clampT y))))

/-! ## The straight line computes that composition -/

/-- The fold of the 56 operations at the result buffer is the steps' composition on the arguments' contents. -/
theorem out_eq (V : Valuation τ sig (Elt Ideal)) :
    after (ops (F := Ideal)) V (main_v24 : DevRef τ sig)
      = quantT (linearT (V (main_arg0 : DevRef τ sig)) (V (main_arg1 : DevRef τ sig)) (V (main_arg2 : DevRef τ sig))) := by
  after_results_simp
  rfl

theorem arg0_eq (V : Valuation τ sig (Elt Ideal)) :
    after (ops (F := Ideal)) V (main_arg0 : DevRef τ sig) = V (main_arg0 : DevRef τ sig) := by after_results_simp
theorem arg1_eq (V : Valuation τ sig (Elt Ideal)) :
    after (ops (F := Ideal)) V (main_arg1 : DevRef τ sig) = V (main_arg1 : DevRef τ sig) := by after_results_simp
theorem arg2_eq (V : Valuation τ sig (Elt Ideal)) :
    after (ops (F := Ideal)) V (main_arg2 : DevRef τ sig) = V (main_arg2 : DevRef τ sig) := by after_results_simp

/-! ## The steps at a token -/

/-- Token `(p, s)`'s row of a tensor. -/
abbrev tok (y : FVec Ideal S4x4096x2048 .f32) (p : Fin 4) (s : Fin 4096) : Fin 2048 → EReal := fun o => y (ix3 p s o)

/-- A per-token statistic spread along the token's row reads, at `(p, s, o)`, token `(p, s)`'s statistic. -/
theorem spreadT_apply (v : FVec Ideal S4x4096x1 .f32) (p : Fin 4) (s : Fin 4096) (o : Fin 2048) :
    broadcastInDim S4x4096x2048 ![0, 1, 2] bcast_S4x4096x1_S4x4096x2048_0_1_2 v (ix3 p s o) = v (ix3 p s (0 : Fin 1)) :=
  broadcastInDim_ab1_abn_apply v bcast_S4x4096x1_S4x4096x2048_0_1_2 p s o

/-- The token sums from the zero pattern, at `(p, s, 0)`. -/
theorem tokSum_apply (y : FVec Ideal S4x4096x2048 .f32) (p : Fin 4) (s : Fin 4096) :
    broadcastInDim S4x4096x1 ![0, 1] bcast_S4x4096_S4x4096x1_0_1
        (Host.reduceAdd (F := Ideal) y (constant (F := Ideal) S_ .f32 0x00000000#32) reducesTo_S4x4096x2048_S4x4096_d2 h_S_) (ix3 p s (0 : Fin 1))
      = ∑ k : Fin 2048, y (ix3 p s k) :=
  (broadcastInDim_ab_ab1_apply _ bcast_S4x4096_S4x4096x1_0_1 p s).trans
    ((hostReduceAdd_token y _ reducesTo_S4x4096x2048_S4x4096_d2 (by decide) h_S_ p s).trans (by
      show c0 + _ = _
      rw [c0_eq, zero_add]))

/-- The token maxima from `-∞`, at `(p, s, 0)`. -/
theorem tokMax_apply (z : FVec Ideal S4x4096x2048 .f32) (p : Fin 4) (s : Fin 4096) :
    broadcastInDim S4x4096x1 ![0, 1] bcast_S4x4096_S4x4096x1_0_1
        (Host.reduce FloatOps.maximumf z (constant (F := Ideal) S_ .f32 0xFF800000#32) reducesTo_S4x4096x2048_S4x4096_d2 h_S_) (ix3 p s (0 : Fin 1))
      = (Finset.univ : Finset (Fin 2048)).fold max cBot (fun k => z (ix3 p s k)) :=
  (broadcastInDim_ab_ab1_apply _ bcast_S4x4096_S4x4096x1_0_1 p s).trans
    (hostReduce_maximumf_token z _ reducesTo_S4x4096x2048_S4x4096_d2 (by decide) h_S_ p s)

theorem meanT_apply (y : FVec Ideal S4x4096x2048 .f32) (p : Fin 4) (s : Fin 4096) :
    meanT y (ix3 p s (0 : Fin 1)) = rowMean (tok y p s) :=
  congrArg (fun t => Ideal.div t cN) (tokSum_apply y p s)

theorem centeredT_apply (y : FVec Ideal S4x4096x2048 .f32) (p : Fin 4) (s : Fin 4096) (o : Fin 2048) :
    centeredT y (ix3 p s o) = y (ix3 p s o) - rowMean (tok y p s) :=
  congrArg (fun t => y (ix3 p s o) - t) ((spreadT_apply (meanT y) p s o).trans (meanT_apply y p s))

/-- The variance's divisor is `2048`: the integer zero reads as the real zero. -/
theorem normT_eq : normT ix0 = cN := by
  show cN - (((0#32 : BitVec 32).toInt : ℝ) : EReal) = cN
  simp

/-- The guard holds: `2048 > 0`. -/
theorem guard_eq : cmpf .ogt normT (constant (F := Ideal) S_ .f32 0x00000000#32) ix0 = 1#1 := by
  show Ideal.cmp .ogt (normT ix0) c0 = 1#1
  rw [normT_eq, cN_eq, c0_eq]
  have h : (0 : EReal) < ((2048 : ℝ) : EReal) := by exact_mod_cast (by norm_num : (0 : ℝ) < 2048)
  simp [Ideal.cmp, h]

theorem varT_apply (y : FVec Ideal S4x4096x2048 .f32) (p : Fin 4) (s : Fin 4096) :
    varT y (ix3 p s (0 : Fin 1)) = rowVar (tok y p s) := by
  have hsum : broadcastInDim S4x4096x1 ![0, 1] bcast_S4x4096_S4x4096x1_0_1
        (Host.reduceAdd (F := Ideal) (mulf (centeredT y) (centeredT y)) (constant (F := Ideal) S_ .f32 0x00000000#32) reducesTo_S4x4096x2048_S4x4096_d2 h_S_)
        (ix3 p s (0 : Fin 1))
      = ∑ k : Fin 2048, (tok y p s k - rowMean (tok y p s)) * (tok y p s k - rowMean (tok y p s)) :=
    (tokSum_apply _ p s).trans (Finset.sum_congr rfl fun k _ => by rw [mulf_apply, centeredT_apply])
  have hg : broadcastInDim S4x4096x1 ![] bcast_S_S4x4096x1 (cmpf .ogt normT (constant (F := Ideal) S_ .f32 0x00000000#32))
      (ix3 p s (0 : Fin 1)) = 1#1 := (broadcastInDim_scalar_apply _ _ bcast_S_S4x4096x1 _).trans guard_eq
  have hn : broadcastInDim S4x4096x1 ![] bcast_S_S4x4096x1 normT (ix3 p s (0 : Fin 1)) = cN :=
    (broadcastInDim_scalar_apply _ _ bcast_S_S4x4096x1 _).trans normT_eq
  show Scalar.select _ (Ideal.div _ _) _ = _
  rw [hg, select_one, hsum, hn]
  rfl

theorem thrT_apply (y : FVec Ideal S4x4096x2048 .f32) (p : Fin 4) (s : Fin 4096) :
    thrT y (ix3 p s (0 : Fin 1)) = rowThr (tok y p s) :=
  congrArg (fun t => c3 * Ideal.sqrt t) (varT_apply y p s)

theorem maskT_apply (y : FVec Ideal S4x4096x2048 .f32) (p : Fin 4) (s : Fin 4096) (o : Fin 2048) :
    maskT y (ix3 p s o) = Ideal.cmp .ogt (max (y (ix3 p s o)) (-(y (ix3 p s o)))) (rowThr (tok y p s)) :=
  congrArg (fun t => Ideal.cmp .ogt (max (y (ix3 p s o)) (-(y (ix3 p s o)))) t)
    ((spreadT_apply (thrT y) p s o).trans (thrT_apply y p s))

theorem clampT_apply (y : FVec Ideal S4x4096x2048 .f32) (p : Fin 4) (s : Fin 4096) (o : Fin 2048) :
    clampT y (ix3 p s o) = rowClamp (tok y p s) (-(rowThr (tok y p s))) o := by
  have h1 := (spreadT_apply (thrT y) p s o).trans (thrT_apply y p s)
  have h2 : broadcastInDim S4x4096x2048 ![0, 1, 2] bcast_S4x4096x1_S4x4096x2048_0_1_2 (Host.negf (F := Ideal) (thrT y)) (ix3 p s o)
      = -(rowThr (tok y p s)) :=
    (spreadT_apply _ p s o).trans (congrArg (fun t => -t) (thrT_apply y p s))
  show min _ (max _ (y (ix3 p s o))) = _
  rw [h1, h2]
  rfl

theorem scaleT_apply (z : FVec Ideal S4x4096x2048 .f32) (p : Fin 4) (s : Fin 4096) :
    scaleT z (ix3 p s (0 : Fin 1)) = rowScale (tok z p s) :=
  congrArg (fun t => max (Ideal.div t cQ) cEps) (tokMax_apply (Host.absf (F := Ideal) z) p s)

theorem tok_clampT (y : FVec Ideal S4x4096x2048 .f32) (p : Fin 4) (s : Fin 4096) :
    tok (clampT y) p s = rowClamp (tok y p s) (-(rowThr (tok y p s))) :=
  funext fun o => clampT_apply y p s o

theorem quantT_apply (y : FVec Ideal S4x4096x2048 .f32) (p : Fin 4) (s : Fin 4096) (o : Fin 2048) :
    quantT y (ix3 p s o) = rowQuant (tok y p s) o := by
  have hs := (spreadT_apply (scaleT (clampT y)) p s o).trans ((scaleT_apply (clampT y) p s).trans
    (congrArg rowScale (tok_clampT y p s)))
  show Scalar.select (maskT y (ix3 p s o)) (y (ix3 p s o))
      (Ideal.liftRound Ideal.roundHalfEven (Ideal.div (clampT y (ix3 p s o))
          (broadcastInDim S4x4096x2048 ![0, 1, 2] bcast_S4x4096x1_S4x4096x2048_0_1_2 (scaleT (clampT y)) (ix3 p s o)))
        * broadcastInDim S4x4096x2048 ![0, 1, 2] bcast_S4x4096x1_S4x4096x2048_0_1_2 (scaleT (clampT y)) (ix3 p s o)) = _
  rw [hs, maskT_apply, clampT_apply]
  rfl

/-! ## The linear layer at a token -/

/-- The reference's product: `[4, 4096, 2048] × [2048, 2048]`, contracting the last axes. -/
abbrev D := dot_S4x4096x2048_S2048x2048_S4x4096x2048_2_1_01_0_n_n

/-- Its contraction runs over `Fin 2048`. -/
abbrev contr : D.contr.Idx ≃ Fin 2048 := contrEquiv1 D 2048 rfl rfl

/-- At output `(p, s, o)` and contraction position `k` the tokens are read at `(p, s, k)`, -/
theorem lhsIdx_eq (p : Fin 4) (s : Fin 4096) (o k : Fin 2048) : D.lhsIdx (ix3 p s o) (contr.symm k) = ix3 p s k := by
  funext a; apply Fin.ext
  match a with
  | ⟨0, _⟩ => simp [DotDims.lhsIdx, D, dot_S4x4096x2048_S2048x2048_S4x4096x2048_2_1_01_0_n_n]; rfl
  | ⟨1, _⟩ => simp [DotDims.lhsIdx, D, dot_S4x4096x2048_S2048x2048_S4x4096x2048_2_1_01_0_n_n]; rfl
  | ⟨2, _⟩ => exact (D.lhsIdx_val_of_single (cl := 2) rfl (ix3 p s o) (contr.symm k)).trans (contrEquiv1_symm_val D 2048 rfl rfl k)

/-- and the weights at `(o, k)`. -/
theorem rhsIdx_eq (p : Fin 4) (s : Fin 4096) (o k : Fin 2048) : D.rhsIdx (ix3 p s o) (contr.symm k) = ix2 o k := by
  funext a; apply Fin.ext
  match a with
  | ⟨0, _⟩ => simp [DotDims.rhsIdx, D, dot_S4x4096x2048_S2048x2048_S4x4096x2048_2_1_01_0_n_n]; rfl
  | ⟨1, _⟩ => exact (D.rhsIdx_val_of_single (cr := 1) rfl (ix3 p s o) (contr.symm k)).trans (contrEquiv1_symm_val D 2048 rfl rfl k)

theorem linearT_apply (x : FVec Ideal S4x4096x2048 .f32) (W : FVec Ideal S2048x2048 .f32) (b : FVec Ideal S2048 .f32)
    (p : Fin 4) (s : Fin 4096) (o : Fin 2048) : linearT x W b (ix3 p s o) = linear x W b p s o := by
  unfold linearT linear
  rw [addf_apply, broadcastInDim_11n_abn_apply, broadcastInDim_n_11n_apply]
  refine congrArg (· + b (ix1 o)) ?_
  refine (Ideal.dotGeneral_apply D none _ x W (ix3 p s o)).trans ?_
  rw [← Equiv.sum_comp contr.symm]
  exact Finset.sum_congr rfl fun k _ => by rw [lhsIdx_eq, rhsIdx_eq]

/-- The reference's composition is the specification's function of the arguments. -/
theorem result_eq (x : FVec Ideal S4x4096x2048 .f32) (W : FVec Ideal S2048x2048 .f32) (b : FVec Ideal S2048 .f32) :
    quantT (linearT x W b) = result x W b := by
  funext i
  obtain ⟨p, s, o, rfl⟩ : ∃ (p : Fin 4) (s : Fin 4096) (o : Fin 2048), i = ix3 p s o := ⟨i 0, i 1, i 2, eq_ix3 i⟩
  rw [quantT_apply]
  exact congrArg (fun f => rowQuant f o) (funext fun o' => linearT_apply x W b p s o')

/-! ## The run -/

/-- Every weakly fair execution of the idealized reference terminates with the result at the specification's
    function of the launch arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c main_v24).trans ((out_eq _).trans (result_eq _ _ _)),
      (h c main_arg0).trans (arg0_eq _), (h c main_arg1).trans (arg1_eq _), (h c main_arg2).trans (arg2_eq _)⟩)
    (run_main m ρ)

end Cert.ReferenceIdeal.Reading

end
-- ==== Proof.lean ====
/-
  The outlier-aware quantized linear layer: the kernel against its reference, on the extended reals.

  Both programs compute `y = x · Wᵀ + b` per token and then quantize each token's row: the row's mean and variance,
  a threshold of three standard deviations, the entries beyond it kept, the others clamped to the threshold, divided by
  the row's scale (the largest clamped magnitude over 127, at least `f32(1e-6)`), rounded to the nearest integer with
  ties to even and multiplied by the scale again. The kernel works on blocks of 256 tokens over a grid of 64 points,
  with the weights transposed beforehand and a matrix product into a zero accumulator; the reference works on the whole
  tensor with a `dot_general` and jax's outlined `std`, `clip`, `round` and `where`. On the extended reals a change of
  float format is the identity, the two products are the same sum over the contracted axis, a row sum from zero is
  the row sum, zero minus the threshold is its negation, and the variance's guard `2048 - 0 > 0` holds, so the two
  results are one function of the arguments (`Cert.Quant.result`) — no law used needs the inputs finite, and the
  precondition is not opened.

  The frames of the two kernels are the generated ones; the reference's frame is its run with the result dropped; the
  idealization rewrote nothing, so `preserves` is `True`.
-/
import proofs.«142777_j70944269795991_1_alg».proof.Defs
import proofs.«142777_j70944269795991_1_alg».proof.Proof.Gen.Kernel
import proofs.«142777_j70944269795991_1_alg».proof.Proof.Gen.Kernel.Skeleton
import proofs.«142777_j70944269795991_1_alg».proof.Proof.Gen.Kernel.Launch
import proofs.«142777_j70944269795991_1_alg».proof.Proof.Gen.Kernel.Points
import proofs.«142777_j70944269795991_1_alg».proof.Proof.Gen.Kernel.Frame
import proofs.«142777_j70944269795991_1_alg».proof.Proof.Gen.KernelIdeal
import proofs.«142777_j70944269795991_1_alg».proof.Proof.Gen.KernelIdeal.Skeleton
import proofs.«142777_j70944269795991_1_alg».proof.Proof.Gen.KernelIdeal.Launch
import proofs.«142777_j70944269795991_1_alg».proof.Proof.Gen.KernelIdeal.Points
import proofs.«142777_j70944269795991_1_alg».proof.Proof.Gen.KernelIdeal.Frame
import proofs.«142777_j70944269795991_1_alg».proof.Proof.Gen.ReferenceIdeal
import proofs.«142777_j70944269795991_1_alg».proof.Proof.Gen.Pre_finite_inputs
import proofs.«142777_j70944269795991_1_alg».proof.Proof.KernelArray
import proofs.«142777_j70944269795991_1_alg».proof.Proof.ReferenceValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Reading.run m ρ)

/-- From memories agreeing on the arguments both idealized programs end with the result at the one function of
    the arguments both compute. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Reading.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
